-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) (main_arg2 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  reducesTo_S2048x2048_S2048_d0 : S2048x2048.ReducesTo [0] S2048
  h_S_ : 0 < S_.numel
  bcast_S2048_S1x2048_1 : S2048.BroadcastsInDim S1x2048 (![1] : Fin 1 → Fin S1x2048.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .f32 = 32 ∨ (Rect.block (s := S8192x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x2048.size a
  hwx0_3 : ∀ i : grid0.Coords, EltTy.bits .f32 = 32 ∨ (Rect.block (s := S8192x2048) S1024x2048.size (cc0_transform_3 i) (hinb0_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S2048x2048_S2048_d0 : S2048x2048.ReducesTo [0] S2048
  h_S_ : 0 < S_.numel
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Pieces.lean ====
/-
  What one run of the kernel body leaves behind, case by case, as the body's own stored values.

  The body has three cases along a row block's four steps. At the first step it zeroes the scratch accumulator and
  adds the step's product; at a middle step it adds the step's product to what the step before left; at the last step
  it does the same and then stores accumulator plus bias row into the output block. Every store covers its whole
  buffer through the rectangle at offset zero, and every load reads a whole buffer, so what a buffer holds afterwards
  is the last store's value with each load replaced by the contents loaded.
-/
import proofs.«169615_j52450140619301_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
  (arg2 : Memref sig .tc .vmem S1024x512 .f32) (harg2 : arg2.IsWhole)
  (arg3 : Memref sig .tc .vmem S512x2048 .bf16) (harg3 : arg3.IsWhole)
  (arg4 : Memref sig .tc .vmem S1x2048 .f32) (harg4 : arg4.IsWhole)
  (arg5 : Memref sig .tc .vmem S1024x2048 .f32) (harg5 : arg5.IsWhole)
  (arg6 : Memref sig .tc .vmem S1024x2048 .f32) (harg6 : arg6.IsWhole)
  (x0 : Vec F S1024x512 .f32) (x1 : Vec F S512x2048 .bf16) (x2 : Vec F S1x2048 .f32)

/-- Between the first and the last step of a row block's run the body leaves, in the scratch holding `acc`, the
    one covering store's payload: `acc` plus the product of this step's blocks. -/
theorem scratch_B (hc0 : ¬cond0_0 i) (hc1 : ¬cond0_1 i) (xs0 : Vec F S1024x2048 .f32) :
    sout0_B_0 c i arg2 harg2 arg3 harg3 arg4 harg4 arg5 harg5 arg6 harg6 hc0 hc1 x0 x1 x2 xs0 = k0_pay2 x0 xs0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg6.read_unread,
    View.ld_unit_zero (S := S1024x512) hz, View.ld_unit_zero (S := S512x2048) hz, View.ld_unit_zero (S := S1024x2048) hz]

/-- At a row block's first step the body stores the zero block, reads it back, and leaves zero plus the product of
    the step's blocks. -/
theorem scratch_A (hc0 : cond0_0 i) (hc1 : ¬cond0_1 i) :
    sout0_A_0 c i arg2 harg2 arg3 harg3 arg4 harg4 arg5 harg5 arg6 harg6 hc0 hc1 x0 x1 x2 = k0_pay2 x0 (k0_pay1 (F := F)) x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg2.read_unread, harg3.read_unread,
    View.ld_unit_zero (S := S1024x512) hz, View.ld_unit_zero (S := S512x2048) hz]

/-- At a row block's last step the scratch is updated as at a middle step. -/
theorem scratch_C (hc0 : ¬cond0_0 i) (hc1 : cond0_1 i) (xs0 : Vec F S1024x2048 .f32) :
    sout0_C_0 c i arg2 harg2 arg3 harg3 arg4 harg4 arg5 harg5 arg6 harg6 hc0 hc1 x0 x1 x2 xs0 = k0_pay2 x0 xs0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S1024x512) hz, View.ld_unit_zero (S := S512x2048) hz, View.ld_unit_zero (S := S1024x2048) hz]

/-- … and the output block is the updated scratch, read back, plus the bias row broadcast down the block. -/
theorem out_C (hc0 : ¬cond0_0 i) (hc1 : cond0_1 i) (xs0 : Vec F S1024x2048 .f32) :
    out0_C_3 c i arg2 harg2 arg3 harg3 arg4 harg4 arg5 harg5 arg6 harg6 hc0 hc1 x0 x1 x2 xs0
      = k0_pay3 x2 (k0_pay2 x0 xs0 x1) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1024x2048) _ hz]
  simp only [View.readAt_eq_ld, harg2.read_unread, harg3.read_unread, harg4.read_unread, harg6.read_unread,
    View.ld_unit_zero (S := S1024x512) hz, View.ld_unit_zero (S := S512x2048) hz, View.ld_unit_zero (S := S1024x2048) hz,
    View.ld_unit_zero (S := S1x2048) hz]

end Cert.KernelIdeal.Pieces
end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Payload.lean ====
/-
  The three values the kernel body stores, read at an index over the extended reals.

  The reset value is the zero block. A step's value is the accumulator plus the product of the step's blocks: at
  (r, q), acc(r, q) + ∑ₖ tanh(x(r, k)) · w(k, q), k over the 512 positions of the step — the change of float format on
  tanh(x) and on w is the identity on exact values, and the product into the zero splat is the plain sum. The
  output value is the accumulator plus the bias row broadcast down the block: acc(r, q) + b(0, q).
-/
import proofs.«169615_j52450140619301_2_alg».proof.Proof.Gen.KernelIdeal.Skeleton
import proofs.«169615_j52450140619301_2_alg».proof.Proof.LibPlainDot
import proofs.«169615_j52450140619301_2_alg».proof.Proof.LibRowBroadcasts
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- One step's product at (r, q): the sum over the step's 512 positions k of tanh(x(r, k)) · w(k, q). -/
def stepProd (x0 : FVec Ideal S1024x512 .f32) (x1 : FVec Ideal S512x2048 .bf16) : S1024x2048.Idx → EReal :=
  fun j => ∑ k : Fin 512, Ideal.tanh (x0 (ix2 (j 0) k)) * x1 (ix2 k (j 1))

/-- The reset value: zero everywhere. -/
theorem pay1_apply (j : S1024x2048.Idx) : k0_pay1 (F := Ideal) j = 0 := by
  unfold k0_pay1
  rw [shapeCast_self]
  exact Ideal.ofBits_zero_f32

/-- A step's value at (r, q): the accumulator there plus the step's 512-term sum of products. -/
theorem pay2_apply (x0 : FVec Ideal S1024x512 .f32) (acc : FVec Ideal S1024x2048 .f32) (x1 : FVec Ideal S512x2048 .bf16)
    (r : Fin 1024) (q : Fin 2048) :
    k0_pay2 (F := Ideal) x0 acc x1 (ix2 r q)
      = acc (ix2 r q) + ∑ k : Fin 512, Ideal.tanh (x0 (ix2 r k)) * x1 (ix2 k q) := by
  unfold k0_pay2
  rw [shapeCast_self, shapeCast_self]
  refine (congrArg (acc (ix2 r q) + ·)
    (Cert.Lib.PlainDot.matmul_zero_apply dot_S1024x512_S512x2048_S1024x2048_1_0_0_1_n_n_wf none
      (truncf .bf16 (tanh x0) bitsLt_bf16_f32) x1 r q)).trans ?_
  rfl

/-- The output value at (r, q): the accumulator there plus the bias row at q. -/
theorem pay3_apply (x2 : FVec Ideal S1x2048 .f32) (acc : FVec Ideal S1024x2048 .f32) (r : Fin 1024) (q : Fin 2048) :
    k0_pay3 (F := Ideal) x2 acc (ix2 r q) = acc (ix2 r q) + x2 (ix2 (0 : Fin 1) q) := by
  unfold k0_pay3
  rw [shapeCast_self, shapeCast_self]
  exact congrArg (acc (ix2 r q) + ·)
    (Cert.Lib.Rows.bcastRow_apply x2 broadcasts_S1x2048_S1024x2048 r q)

/-- A step's value at any index of the block: the accumulator there plus the step's product there. -/
theorem pay2_eq (x0 : FVec Ideal S1024x512 .f32) (acc : FVec Ideal S1024x2048 .f32) (x1 : FVec Ideal S512x2048 .bf16)
    (j : S1024x2048.Idx) : k0_pay2 (F := Ideal) x0 acc x1 j = acc j + stepProd x0 x1 j := by
  obtain ⟨r, q, rfl⟩ : ∃ (r : Fin 1024) (q : Fin 2048), j = ix2 r q := ⟨j 0, j 1, eq_ix2 j⟩
  exact pay2_apply x0 acc x1 r q

/-- The output value at any index of the block: the accumulator there plus the bias row at the index's column. -/
theorem pay3_eq (x2 : FVec Ideal S1x2048 .f32) (acc : FVec Ideal S1024x2048 .f32) (j : S1024x2048.Idx) :
    k0_pay3 (F := Ideal) x2 acc j = acc j + x2 (ix2 (0 : Fin 1) (j 1)) := by
  obtain ⟨r, q, rfl⟩ : ∃ (r : Fin 1024) (q : Fin 2048), j = ix2 r q := ⟨j 0, j 1, eq_ix2 j⟩
  exact pay3_apply x2 acc r q

end Cert.KernelIdeal.Payload

end
-- ==== Proof.Blocks.lean ====
/-
  What each window's block holds at a grid point, read at an index of the argument arrays.

  The grid is 8 row blocks by 4 steps, walked row block by row block: point t is row block t / 4 at step t % 4. At
  that point the x window holds rows 1024·(t/4) … and columns 512·(t%4) … of x; the weight window holds rows
  512·(t%4) … of the weight array, all 2048 columns; the bias window holds the whole 1 × 2048 bias row; and the
  output window's block is rows 1024·(t/4) … of the result. A block's coordinate in its array is always
  block index × block extent + the coordinate inside the block.

  Two of the staged arrays are written by the host before the kernel is launched: the weight array recast to the
  narrower float format — the same exact values — and the bias row, the column sums of B from zero placed on a
  leading unit axis: at column q, 0 + ∑ₖ B(k, q).
-/
import proofs.«169615_j52450140619301_2_alg».proof.Proof.Gen.KernelIdeal.Frame.Runs
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

/-- The windows' block indices over the grid: row block t / 4, step t % 4. -/
theorem index_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

section anyFloat

variable {F : FTy → Type} [FloatOps F]
variable (m : (ℓ : Loc nD τ sig) → Buf (Elt F) ℓ)

/-- The weight array as the kernel finds it: the host's recast of the second argument. -/
theorem V_main_v0 (c : Dev nD) :
    (V m c main_v0 : S2048x2048.Idx → Elt F .bf16)
      = truncf .bf16 (m ((c : Thread nD τ).loc main_arg1)) bitsLt_bf16_f32 := by
  dsimp only [V, hostOps0]; after_results

/-- The bias row as the kernel finds it: the host's column sums of the third argument from zero, on a leading unit
    axis. -/
theorem V_main_v2 (c : Dev nD) :
    (V m c main_v2 : S1x2048.Idx → Elt F .f32)
      = broadcastInDim S1x2048 ![1] bcast_S2048_S1x2048_1
          (Host.reduceAdd (m ((c : Thread nD τ).loc main_arg2)) (constant (F := F) S_ .f32 0x00000000#32)
            reducesTo_S2048x2048_S2048_d0 h_S_) := by
  dsimp only [V, hostOps0]; after_results

/-- The x window's block at point t, at (r, k): x at row 1024·(t/4) + r, column 512·(t%4) + k. -/
theorem blk0_apply (c : Dev nD) (t : Fin cfg0.N) (r : Fin 1024) (k : Fin 512) (i : S8192x2048.Idx)
    (h0 : (i 0).val = 1024 * (t.val / 4) + r.val) (h1 : (i 1).val = 512 * (t.val % 4) + k.val) :
    (iblk m c 0 t : Vec F S1024x512 .f32) (ix2 r k) = m ((c : Thread nD τ).loc main_arg0) i := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * r.val = (i 0).val; omega
  | ⟨1, _⟩ => show win0_0.index t (1 : Fin 2) * 512 + 1 * k.val = (i 1).val; omega

/-- The weight window's block at point t, at (k, q): the staged weight array at row 512·(t%4) + k, column q. -/
theorem blk1_apply (c : Dev nD) (t : Fin cfg0.N) (k : Fin 512) (q : Fin 2048) (i : S2048x2048.Idx)
    (h0 : (i 0).val = 512 * (t.val % 4) + k.val) (h1 : (i 1).val = q.val) :
    (iblk m c 1 t : Vec F S512x2048 .bf16) (ix2 k q) = (V m c main_v0 : S2048x2048.Idx → Elt F .bf16) i := by
  obtain ⟨-, -, e0, e1, -⟩ := index_facts t
  unfold iblk
  rw [View.read_apply]
  show V m c main_v0 _ = _
  refine congrArg _ (funext fun a => Fin.ext ?_)
  match a with
  | ⟨0, _⟩ => show win0_1.index t (0 : Fin 2) * 512 + 1 * k.val = (i 0).val; omega
  | ⟨1, _⟩ => show win0_1.index t (1 : Fin 2) * 2048 + 1 * q.val = (i 1).val; omega

/-- The bias window's block is the whole bias row, at every point. -/
theorem blk2_apply (c : Dev nD) (t : Fin cfg0.N) (q : Fin 2048) :
    (iblk m c 2 t : Vec F S1x2048 .f32) (ix2 (0 : Fin 1) q)
      = (V m c main_v2 : S1x2048.Idx → Elt F .f32) (ix2 (0 : Fin 1) q) := by
  obtain ⟨-, -, -, -, e0, e1, -⟩ := index_facts t
  unfold iblk
  rw [View.read_apply]
  show V m c main_v2 _ = _
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * q.val = q.val; omega

/-- The output window's block at point t, at (r, q), is the result array's index (1024·(t/4) + r, q). -/
theorem out_emb (t : Fin cfg0.N) (r : Fin 1024) (q : Fin 2048) (i : S8192x2048.Idx)
    (h0 : (i 0).val = 1024 * (t.val / 4) + r.val) (h1 : (i 1).val = q.val) :
    ((cfg0.win 3).blk t).view.emb (ix2 r q) = i := by
  obtain ⟨-, -, -, -, -, -, e0, e1⟩ := index_facts t
  refine funext fun a => Fin.ext ?_
  match a with
  | ⟨0, _⟩ => show win0_3.index t (0 : Fin 2) * 1024 + 1 * r.val = (i 0).val; omega
  | ⟨1, _⟩ => show win0_3.index t (1 : Fin 2) * 2048 + 1 * q.val = (i 1).val; omega

end anyFloat

section exact

variable (m : (ℓ : Loc nD τ sig) → Buf (Elt Ideal) ℓ)

/-- The three argument arrays at launch, as arrays of exact values. -/
abbrev argX (c : Dev nD) : FVec Ideal S8192x2048 .f32 := m ((c : Thread nD τ).loc main_arg0)
abbrev argW (c : Dev nD) : FVec Ideal S2048x2048 .f32 := m ((c : Thread nD τ).loc main_arg1)
abbrev argB (c : Dev nD) : FVec Ideal S2048x2048 .f32 := m ((c : Thread nD τ).loc main_arg2)

/-- On exact values the staged weight array is the second argument. -/
theorem weight_apply (c : Dev nD) (i : S2048x2048.Idx) :
    (V m c main_v0 : S2048x2048.Idx → Elt Ideal .bf16) i = argW m c i := by
  rw [V_main_v0]; rfl

/-- On exact values the bias row at column q is 0 + ∑ₖ B(k, q). -/
theorem bias_apply (c : Dev nD) (q : Fin 2048) :
    (V m c main_v2 : S1x2048.Idx → Elt Ideal .f32) (ix2 (0 : Fin 1) q)
      = Ideal.ofBits .f32 0x00000000#32 + ∑ k : Fin 2048, argB m c (ix2 k q) := by
  rw [V_main_v2]
  refine (broadcastInDim_apply _ bcast_S2048_S1x2048_1 _ (ix2 (0 : Fin 1) q) (ix1 q) (fun a => match a with
    | ⟨0, _⟩ => by show q.val = if (2048 : Nat) = 1 then 0 else q.val; rw [if_neg (by decide)])).trans ?_
  simp only [Host.reduceAdd, Ideal.hostReduceAdd_def]
  rw [Ideal.hostReduceAdd_single reducesTo_S2048x2048_S2048_d0 (by decide)]
  refine congrArg (_ + ·) (Finset.sum_congr rfl fun k _ => ?_)
  exact congrArg _ (funext fun a => Fin.ext (by match a with | ⟨0, _⟩ => rfl | ⟨1, _⟩ => rfl))

end exact

end Cert.KernelIdeal.Blocks

end
-- ==== Proof.BlockSum.lean ====
/-
  A sum over 2048 consecutive indices, taken in four stretches of 512 and accumulated from the left, is the
  whole sum. Only commutative-monoid laws are used, so it holds on the extended reals with no finiteness.
-/
import Mathlib.Algebra.BigOperators.Fin
import Mathlib.Algebra.BigOperators.Intervals

namespace Cert.BlockSum

open Finset

/-- A sum over `Fin n` of a function of the index's value is the sum over `range n`. -/
theorem sum_fin_eq_range {M : Type*} [AddCommMonoid M] (n : ℕ) (f : ℕ → M) :
    (∑ i : Fin n, f i.val) = ∑ i ∈ range n, f i :=
  Fin.sum_univ_eq_sum_range f n

/-- The whole sum over `Fin 2048` is the left-nested sum of its four stretches of length 512. -/
theorem sum_2048_eq_four {M : Type*} [AddCommMonoid M] (f : ℕ → M) :
    (∑ i : Fin 2048, f i.val)
      = (((∑ c : Fin 512, f (512 * 0 + c.val)) + ∑ c : Fin 512, f (512 * 1 + c.val))
          + ∑ c : Fin 512, f (512 * 2 + c.val)) + ∑ c : Fin 512, f (512 * 3 + c.val) := by
  rw [sum_fin_eq_range 2048 f,
    sum_fin_eq_range 512 (fun c => f (512 * 0 + c)), sum_fin_eq_range 512 (fun c => f (512 * 1 + c)),
    sum_fin_eq_range 512 (fun c => f (512 * 2 + c)), sum_fin_eq_range 512 (fun c => f (512 * 3 + c))]
  have h : (2048 : ℕ) = 512 + 512 + 512 + 512 := rfl
  rw [h, sum_range_add, sum_range_add, sum_range_add]
  simp only [Nat.mul_zero, Nat.zero_add, Nat.mul_one]

/-- The same for a summand indexed by `Fin 2048`: stretch `s` is read at positions `512 * s + c`. -/
theorem sum_fin2048_eq_four {M : Type*} [AddCommMonoid M] (f : Fin 2048 → M) :
    (∑ i : Fin 2048, f i)
      = (((∑ c : Fin 512, f ⟨512 * 0 + c.val, by have := c.isLt; omega⟩)
            + ∑ c : Fin 512, f ⟨512 * 1 + c.val, by have := c.isLt; omega⟩)
          + ∑ c : Fin 512, f ⟨512 * 2 + c.val, by have := c.isLt; omega⟩)
        + ∑ c : Fin 512, f ⟨512 * 3 + c.val, by have := c.isLt; omega⟩ := by
  have h := sum_2048_eq_four (fun n => if h : n < 2048 then f ⟨n, h⟩ else 0)
  have e0 : ∀ i : Fin 2048, (if h : i.val < 2048 then f ⟨i.val, h⟩ else 0) = f i :=
    fun i => dif_pos i.isLt
  have es : ∀ (s : ℕ) (hs : s < 4) (c : Fin 512),
      (if h : 512 * s + c.val < 2048 then f ⟨512 * s + c.val, h⟩ else 0)
        = f ⟨512 * s + c.val, by have := c.isLt; omega⟩ :=
    fun s hs c => dif_pos (by have := c.isLt; omega)
  simp only [e0] at h
  rw [h]
  simp only [es 0 (by omega), es 1 (by omega), es 2 (by omega), es 3 (by omega)]

end Cert.BlockSum
-- ==== Proof.Spec.lean ====
/-
  The layer both programs compute, as one function of the three argument arrays over the extended reals:

      out(p, q) = ∑ₖ tanh(x(p, k)) · W(k, q)  +  (0 + ∑ₖ B(k, q)),     k over all 2048 input features.

  The kernel reaches the first sum in four steps of 512 features each, accumulated from zero in step order; by the
  block-sum law that left-nested sum of four partial sums is the whole sum, whatever the values (no finiteness is
  needed: only the commutative-monoid laws of addition are used).
-/
import Idealize.ShloMosaic.Lib.ValueIdx
import Idealize.ShloMosaic.PureOps.Ideal
import proofs.«169615_j52450140619301_2_alg».proof.Proof.BlockSum

noncomputable section

namespace Cert.Spec

open Idealize.ShloMosaic Idealize.ShloMosaic.ValueIdx

/-- The layer: tanh(x) times W plus the column sums of B taken from zero. -/
def layer (x : FVec Ideal ⟨2, ![8192, 2048]⟩ .f32) (W B : FVec Ideal ⟨2, ![2048, 2048]⟩ .f32) :
    FVec Ideal ⟨2, ![8192, 2048]⟩ .f32 := fun i =>
  (∑ k : Fin 2048, Ideal.tanh (x (ix2 (i 0) k)) * W (ix2 k (i 1)))
    + (Ideal.ofBits .f32 0x00000000#32 + ∑ k : Fin 2048, B (ix2 k (i 1)))

/-- Step s's partial sum at (p, q): features 512·s … 512·s + 511. -/
def stepSum (x : FVec Ideal ⟨2, ![8192, 2048]⟩ .f32) (W : FVec Ideal ⟨2, ![2048, 2048]⟩ .f32)
    (p : Fin 8192) (q : Fin 2048) (s : ℕ) (hs : s < 4) : EReal :=
  ∑ c : Fin 512, Ideal.tanh (x (ix2 p ⟨512 * s + c.val, by have := c.isLt; omega⟩))
    * W (ix2 ⟨512 * s + c.val, by have := c.isLt; omega⟩ q)

/-- The layer at (p, q) is the four partial sums accumulated from zero in step order, plus the bias term. -/
theorem layer_eq_steps (x : FVec Ideal ⟨2, ![8192, 2048]⟩ .f32) (W B : FVec Ideal ⟨2, ![2048, 2048]⟩ .f32)
    (p : Fin 8192) (q : Fin 2048) :
    layer x W B (ix2 p q)
      = (0 + (((stepSum x W p q 0 (by omega) + stepSum x W p q 1 (by omega)) + stepSum x W p q 2 (by omega))
            + stepSum x W p q 3 (by omega)))
        + (Ideal.ofBits .f32 0x00000000#32 + ∑ k : Fin 2048, B (ix2 k q)) := by
  rw [zero_add]
  exact congrArg (· + (Ideal.ofBits .f32 0x00000000#32 + ∑ k : Fin 2048, B (ix2 k q)))
    (Cert.BlockSum.sum_fin2048_eq_four (fun k => Ideal.tanh (x (ix2 p k)) * W (ix2 k q)))

end Cert.Spec

end
-- ==== Proof.KernelValue.lean ====
/-
  The kernel's result array is the layer of its three argument arrays.

  A row block's four steps form one run of the scratch accumulator: reset to zero plus the first step's product, then
  each later step adds its own product. So after the run's last step the scratch holds, at (r, q), zero plus the sum
  over the four steps of that step's 512-term product — the fold of the run, read at an index. At that last step the
  body also stores scratch plus bias row into the output block, and only there is the block written back to the
  result array. Step s of row block a reads x at rows 1024·a + r and features 512·s + k, and the weight array at the
  same features, so the four products are the four stretches of the layer's 2048-term sum at row 1024·a + r. The
  eight written-back blocks tile the result array: row p lies in row block p / 1024.
-/
import proofs.«169615_j52450140619301_2_alg».proof.Proof.Gen.KernelIdeal.Value
import proofs.«169615_j52450140619301_2_alg».proof.Proof.Pieces
import proofs.«169615_j52450140619301_2_alg».proof.Proof.Payload
import proofs.«169615_j52450140619301_2_alg».proof.Proof.Blocks
import proofs.«169615_j52450140619301_2_alg».proof.Proof.Spec
import Idealize.ShloMosaic.Lib.Pipeline.Value

noncomputable section

namespace Cert.KernelIdeal.KernelValue

open Cert.KernelIdeal Cert.KernelIdeal.Gen Idealize.ShloMosaic Idealize.ShloMosaic.TcCoe Idealize.ShloMosaic.ValueIdx
open Idealize.SL.Sem
open Idealize.ShloMosaic.Pipeline (Dat)

/-! ## One step of the scratch, and the output at a last step, as the body's stored values (any float model) -/

section anyFloat

variable {F : FTy → Type} [FloatOps F]
variable (m : (ℓ : Loc nD τ sig) → Buf (Elt F) ℓ)

/-- At a run's first point the scratch is left at the reset value stepped once, whatever it held. -/
theorem scAt_first (c : Dev nD) (n : ℕ) (hb : n < cfg0.N) (h0 : n % 4 = 0) (acc : Vec F S1024x2048 .f32) :
    Value.scAt0_0 m c n hb acc = k0_pay2 (iblk m c 0 ⟨n, hb⟩) (k0_pay1 (F := F)) (iblk m c 1 ⟨n, hb⟩) := by
  have h1 : ¬n % 4 = 3 := by omega
  unfold Value.scAt0_0
  rw [dif_pos h0, dif_neg h1]
  exact Pieces.scratch_A c (grid0.coords ⟨n, hb⟩) (ms0_0 ⟨n, hb⟩) (hs0_0 ⟨n, hb⟩) (ms0_1 ⟨n, hb⟩) (hs0_1 ⟨n, hb⟩)
    (ms0_2 ⟨n, hb⟩) (hs0_2 ⟨n, hb⟩) (ms0_3 ⟨n, hb⟩) (hs0_3 ⟨n, hb⟩) scM0_0 (Memref.isWhole_whole _)
    (iblk m c 0 ⟨n, hb⟩) (iblk m c 1 ⟨n, hb⟩) (iblk m c 2 ⟨n, hb⟩) _ _

/-- At every later point of the run the scratch is what the point before left, stepped once. -/
theorem scAt_later (c : Dev nD) (n : ℕ) (hb : n < cfg0.N) (h0 : ¬n % 4 = 0) (acc : Vec F S1024x2048 .f32) :
    Value.scAt0_0 m c n hb acc = k0_pay2 (iblk m c 0 ⟨n, hb⟩) acc (iblk m c 1 ⟨n, hb⟩) := by
  unfold Value.scAt0_0
  rw [dif_neg h0]
  by_cases h1 : n % 4 = 3
  · rw [dif_pos h1]
    exact Pieces.scratch_C c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) scM0_0 (Memref.isWhole_whole _)
      (iblk m c 0 ⟨n, hb⟩) (iblk m c 1 ⟨n, hb⟩) (iblk m c 2 ⟨n, hb⟩) _ _ acc
  · rw [dif_neg h1]
    exact Pieces.scratch_B c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) scM0_0 (Memref.isWhole_whole _)
      (iblk m c 0 ⟨n, hb⟩) (iblk m c 1 ⟨n, hb⟩) (iblk m c 2 ⟨n, hb⟩) _ _ acc

/-- At a run's last point the output block is the scratch as that point leaves it, plus the bias row. -/
theorem out_last (c : Dev nD) (t : Fin cfg0.N) (h3 : t.val % 4 = 3) :
    (outsAt0 m c t.val t.isLt).1 = k0_pay3 (iblk m c 2 t) ((outsAt0 m c t.val t.isLt).2) := by
  have h0 : ¬t.val % 4 = 0 := by omega
  rw [outsAt0_C m c t h0 h3]
  dsimp only
  exact (Pieces.out_C c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (iblk m c 2 t) _ _
      (outsAt0 m c (t.val - 1) (Nat.lt_of_le_of_lt (Nat.sub_le _ _) t.isLt)).2).trans
    (congrArg (k0_pay3 (iblk m c 2 t))
      (Pieces.scratch_C c (grid0.coords t) (ms0_0 t) (hs0_0 t) (ms0_1 t) (hs0_1 t) (ms0_2 t) (hs0_2 t) (ms0_3 t) (hs0_3 t)
        scM0_0 (Memref.isWhole_whole _) (iblk m c 0 t) (iblk m c 1 t) (iblk m c 2 t) _ _
        (outsAt0 m c (t.val - 1) (Nat.lt_of_le_of_lt (Nat.sub_le _ _) t.isLt)).2).symm)

end anyFloat

/-! ## On exact values -/

variable (m : (ℓ : Loc nD τ sig) → Buf (Elt Ideal) ℓ) (ρ : Dev nD → PrngReg)

/-- Point n's addend to the scratch at an index of the block: the product of the point's x block and weight block
    (zero past the grid, where it is never used). -/
def stepTerm (c : Dev nD) (n : ℕ) : S1024x2048.Idx → EReal := fun j =>
  if h : n < cfg0.N then Payload.stepProd (iblk m c 0 ⟨n, h⟩) (iblk m c 1 ⟨n, h⟩) j else 0

/-- After a run's last point the scratch holds zero plus the four points' addends. -/
theorem scratch_last (c : Dev nD) (t : Fin cfg0.N) (h3 : t.val % 4 = 3) (j : S1024x2048.Idx) :
    (outsAt0 m c t.val t.isLt).2 j = 0 + ∑ s ∈ Finset.range 4, stepTerm m c (4 * (t.val / 4) + s) j := by
  have hN : cfg0.N = 32 := N_0
  rw [Value.soutsAt0_0_eq m c t]
  refine (Pipeline.accAt_add_apply _ _ (fun _ => (0 : EReal)) (stepTerm m c) (4 * (t.val / 4)) 3 ?ha ?hg
    (t.val % 4) (by omega) _ j).trans ?_
  case ha =>
    intro h i
    have h0 : (4 * (t.val / 4)) % 4 = 0 := by omega
    show Value.scAt0_0 m c (4 * (t.val / 4)) h _ i = _
    rw [scAt_first m c (4 * (t.val / 4)) h h0]
    refine (Payload.pay2_eq _ _ _ i).trans ?_
    rw [Payload.pay1_apply]
    unfold stepTerm
    rw [dif_pos h]
  case hg =>
    intro n h acc i hlt hle
    have h0 : ¬n % 4 = 0 := by omega
    rw [scAt_later m c n h h0 acc]
    refine (Payload.pay2_eq _ _ _ i).trans ?_
    unfold stepTerm
    rw [dif_pos h]
  · rw [h3]

/-- Step s of row block a contributes, at (r, q), stretch s of the layer's sum at row 1024·a + r. -/
theorem stepTerm_apply (c : Dev nD) (a : ℕ) (ha : a < 8) (s : ℕ) (hs : s < 4) (r : Fin 1024) (q : Fin 2048) :
    stepTerm m c (4 * a + s) (ix2 r q)
      = Spec.stepSum (Blocks.argX m c) (Blocks.argW m c) ⟨1024 * a + r.val, by have := r.isLt; omega⟩ q s hs := by
  have hN : 4 * a + s < cfg0.N := by rw [show cfg0.N = 32 from N_0]; omega
  have hd : (4 * a + s) / 4 = a := by omega
  have hm : (4 * a + s) % 4 = s := by omega
  unfold stepTerm
  rw [dif_pos hN]
  unfold Payload.stepProd Spec.stepSum
  refine Finset.sum_congr rfl fun k _ => ?_
  exact congrArg₂ (· * ·)
    (congrArg Ideal.tanh (Blocks.blk0_apply m c ⟨4 * a + s, hN⟩ r k
      (ix2 ⟨1024 * a + r.val, by have := r.isLt; omega⟩ ⟨512 * s + k.val, by have := k.isLt; omega⟩)
      (by show 1024 * a + r.val = 1024 * ((4 * a + s) / 4) + r.val; rw [hd])
      (by show 512 * s + k.val = 512 * ((4 * a + s) % 4) + k.val; rw [hm])))
    ((Blocks.blk1_apply m c ⟨4 * a + s, hN⟩ k q (ix2 ⟨512 * s + k.val, by have := k.isLt; omega⟩ q)
      (by show 512 * s + k.val = 512 * ((4 * a + s) % 4) + k.val; rw [hm]) rfl).trans
      (Blocks.weight_apply m c _))

/-- The result array's contents: the layer of the three argument arrays at launch. -/
def result (c : Dev nD) : Buf (Elt Ideal) ((c : Thread nD τ).loc main_v3) :=
  Spec.layer (Blocks.argX m c) (Blocks.argW m c) (Blocks.argB m c)

/-- What a last-step point writes back is its block of the layer. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h3 : t.val % 4 = 3 := (flush0_3 t).mp hf
  have hlt := t.isLt
  have ha : t.val / 4 < 8 := by omega
  show (cfg0.win 3).cut (grid0.coords t) ((dats m 0 c).after 3 t) = _
  rw [after0_3, out_last m c t h3]
  funext j
  obtain ⟨r, q, rfl⟩ : ∃ (r : Fin 1024) (q : Fin 2048), j = ix2 r q := ⟨j 0, j 1, eq_ix2 j⟩
  show k0_pay3 (iblk m c 2 t) ((outsAt0 m c t.val t.isLt).2) (ix2 r q)
    = result m c (((cfg0.win 3).blk t).view.emb (ix2 r q))
  rw [Blocks.out_emb t r q (ix2 ⟨1024 * (t.val / 4) + r.val, by have := r.isLt; omega⟩ q) rfl rfl]
  refine (Payload.pay3_eq _ _ _).trans ?_
  rw [scratch_last m c t h3, Finset.sum_range_succ, Finset.sum_range_succ, Finset.sum_range_succ,
    Finset.sum_range_one, stepTerm_apply m c (t.val / 4) ha 0 (by omega) r q,
    stepTerm_apply m c (t.val / 4) ha 1 (by omega) r q, stepTerm_apply m c (t.val / 4) ha 2 (by omega) r q,
    stepTerm_apply m c (t.val / 4) ha 3 (by omega) r q]
  show _ + (iblk m c 2 t : Vec Ideal S1x2048 .f32) (ix2 (0 : Fin 1) q) = _
  rw [Blocks.blk2_apply m c t q, Blocks.bias_apply m c q]
  exact (Spec.layer_eq_steps (Blocks.argX m c) (Blocks.argW m c) (Blocks.argB m c)
    ⟨1024 * (t.val / 4) + r.val, by have := r.isLt; omega⟩ q).symm

/-- An index of the result array is in point t's block iff each coordinate is in the block's range on its axis. -/
theorem mem_blk (t : Fin cfg0.N) (i : S8192x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v3).slice (win0_3.rect t)).set ↔ _
  rw [View.set_slice_whole, Rect.mem_set_unit]
  exact Iff.rfl

/-- Every index of the result array is in the block some last-step point writes back: row p is in row block
    p / 1024, whose last step is point 4·(p / 1024) + 3. -/
theorem cover (i : S8192x2048.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 2048 := (i 1).isLt
  obtain ⟨t, ht⟩ : ∃ t : Fin cfg0.N, t.val = 4 * ((i 0).val / 1024) + 3 := ⟨⟨4 * ((i 0).val / 1024) + 3, by omega⟩, rfl⟩
  obtain ⟨-, -, -, -, -, -, e0, e1⟩ := Blocks.index_facts t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 2048 ≤ (i 1).val ∧ (i 1).val < win0_3.index t (1 : Fin 2) * 2048 + 2048
    omega

/-- So the result array ends holding the layer. -/
theorem final (c : Dev nD) : (dats m 0 c).arrAt 3 cfg0.N = result m c :=
  (dats m 0 c).arrAt_eq_of_cover 3 (result m c) (flushed_eq m c) cover

/-- The run, read: the result array at the layer of the argument arrays, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefValue.lean ====
/-
  The reference's result is the layer.

  Read one operation at a time at an index i = (p, q): the product stage is ∑ₖ tanh(x(p, k)) · W(k, q) over all 2048
  features (the host's tanh and the kernel's are one function on exact values); the bias stage is the column sum of B
  from zero, 0 + ∑ₖ B(k, q), carried to (p, q) by two broadcasts that only add and then repeat a leading axis; the last
  stage adds the two.
-/
import proofs.«169615_j52450140619301_2_alg».proof.Proof.Gen.ReferenceIdeal.Read
import proofs.«169615_j52450140619301_2_alg».proof.Proof.Spec

noncomputable section

namespace Cert.ReferenceIdeal.RefValue

open Cert.ReferenceIdeal Cert.ReferenceIdeal.Gen Idealize.ShloMosaic Idealize.ShloMosaic.ValueIdx

/-- The reference's last stage, as a function of the three arguments, is the layer. -/
theorem result_eq (x0 : (⟨S8192x2048, .f32⟩ : BufTy).Contents (Elt Ideal))
    (x1 x2 : (⟨S2048x2048, .f32⟩ : BufTy).Contents (Elt Ideal)) :
    Read.val_main_v5 (F := Ideal) x0 x1 x2 = Cert.Spec.layer x0 x1 x2 := by
  funext i
  have el : ∀ k : Fin 2048, Read.lidx_main_v1 i k = ix2 (i 0) k :=
    fun k => funext fun a => Fin.ext (by match a with | ⟨0, _⟩ => rfl | ⟨1, _⟩ => rfl)
  have er : ∀ k : Fin 2048, Read.ridx_main_v1 i k = ix2 k (i 1) :=
    fun k => funext fun a => Fin.ext (by match a with | ⟨0, _⟩ => rfl | ⟨1, _⟩ => rfl)
  have eb : ∀ k : Fin 2048, Read.idx_main_v2 (Read.idx_main_v3 (Read.idx_main_v4 i)) k = ix2 k (i 1) :=
    fun k => funext fun a => Fin.ext (by match a with | ⟨0, _⟩ => rfl | ⟨1, _⟩ => rfl)
  rw [Read.val_main_v5_apply, Read.val_main_v1_apply, Read.val_main_v4_apply, Read.val_main_v3_apply,
    Read.val_main_v2_apply]
  simp only [el, er, eb]
  rfl

end Cert.ReferenceIdeal.RefValue

end
-- ==== Proof.lean ====
/-
  A dense layer out = tanh(x) · W + column-sums(B) over f32[8192, 2048] × f32[2048, 2048], computed by a tiled kernel
  (row blocks of 1024, the 2048 input features in four steps of 512 accumulated in a scratch block from zero, the
  bias row added at the last step) against the plain formula.

  On exact values — floats read as extended reals, every operation exact, a change of float format the identity —
  both programs compute, at (p, q), ∑ₖ tanh(x(p, k)) · W(k, q) + (0 + ∑ₖ B(k, q)). The kernel's result array holds
  that function because each written-back block is the four-step fold of its row block (KernelValue); the
  reference's does because its seven operations compose to it (RefValue). The two groupings of the 2048-term sum
  agree by associativity and commutativity of addition alone, so the precondition that the inputs are finite is never
  used for the values. The idealization rewrote nothing, so it is trivially the program's own text read on exact
  values. Each program's frame — it terminates, faults nowhere and leaves its arguments as they were — is the
  generated frame for the two kernels, and the generated run of the host program for the reference.
-/
import proofs.«169615_j52450140619301_2_alg».proof.Defs
import proofs.«169615_j52450140619301_2_alg».proof.Proof.Gen.Kernel
import proofs.«169615_j52450140619301_2_alg».proof.Proof.Gen.Kernel.Skeleton
import proofs.«169615_j52450140619301_2_alg».proof.Proof.Gen.Kernel.Launch
import proofs.«169615_j52450140619301_2_alg».proof.Proof.Gen.Kernel.Points
import proofs.«169615_j52450140619301_2_alg».proof.Proof.Gen.Kernel.Frame
import proofs.«169615_j52450140619301_2_alg».proof.Proof.Gen.KernelIdeal
import proofs.«169615_j52450140619301_2_alg».proof.Proof.Gen.KernelIdeal.Skeleton
import proofs.«169615_j52450140619301_2_alg».proof.Proof.Gen.KernelIdeal.Launch
import proofs.«169615_j52450140619301_2_alg».proof.Proof.Gen.KernelIdeal.Points
import proofs.«169615_j52450140619301_2_alg».proof.Proof.Gen.KernelIdeal.Frame
import proofs.«169615_j52450140619301_2_alg».proof.Proof.Gen.KernelIdeal.Value
import proofs.«169615_j52450140619301_2_alg».proof.Proof.Gen.ReferenceIdeal.Run
import proofs.«169615_j52450140619301_2_alg».proof.Proof.Gen.ReferenceIdeal.Read
import proofs.«169615_j52450140619301_2_alg».proof.Proof.KernelValue
import proofs.«169615_j52450140619301_2_alg».proof.Proof.RefValue
import proofs.«169615_j52450140619301_2_alg».proof.Proof.Gen.ReferenceIdeal
import proofs.«169615_j52450140619301_2_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, both result arrays end at the layer of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
